-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x256 : Shape := ⟨3, ![1024, 200, 256]⟩
abbrev S1024x200 : Shape := ⟨2, ![1024, 200]⟩
abbrev S256x256 : Shape := ⟨2, ![256, 256]⟩
abbrev S256x1 : Shape := ⟨2, ![256, 1]⟩
abbrev S256 : Shape := ⟨1, ![256]⟩
abbrev S1 : Shape := ⟨1, ![1]⟩
abbrev S100000x256 : Shape := ⟨2, ![100000, 256]⟩
abbrev S_ : Shape := ⟨0, ![]⟩

class Facts : Prop where
  bcast_S_S1024x200x256 : S_.BroadcastsInDim S1024x200x256 (![] : Fin 0 → Fin S1024x200x256.rank)
  reducesTo_S1024x200x256_S_d0_1_2 : S1024x200x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_arg5 : FVec F S256 .f32) (main_arg6 : FVec F S1 .f32) (main_arg7 : FVec F S100000x256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S100000x256 .f32 := Host.absf main_arg7
  let main_cst_10 : FVec F S_ .f32 := constant S_ .f32 0x7F800000#32
  let main_v30 : FVec F S100000x256 .f32 := broadcastInDim S100000x256 ![] bcast_S_S100000x256 main_cst_10
  let main_v31 : IVec S100000x256 1 := cmpf .olt main_v29 main_v30
  let main_c_11 : IVec S_ 1 := constantI S_ 1 1#1
  let main_v32 : IVec S_ 1 := (fun x v => Host.reduce IntOp.andi x v reducesTo_S100000x256_S_d0_1 h_S_) main_v31 main_c_11
  let main_v33 : IVec S_ 1 := andi main_v28 main_v32
  main_v33

def fn {F : FTy → Type} [FloatOps F] (main_arg0 : FVec F S1024x200x256 .f32) (main_arg1 : IVec S1024x200 32) (main_arg2 : FVec F S256x256 .f32) (main_arg3 : FVec F S256x256 .f32) (main_arg4 : FVec F S256x1 .f32) (main_arg5 : FVec F S256 .f32) (main_arg6 : FVec F S1 .f32) (main_arg7 : FVec F S100000x256 .f32) : IVec S_ 1 :=
  let main_v0 : FVec F S1024x200x256 .f32 := Host.absf main_arg0
  let main_cst : FVec F S_ .f32 := constant S_ .f32 0x7F800000#32
  let main_v1 : FVec F S1024x200x256 .f32 := broadcastInDim S1024x200x256 ![] bcast_S_S1024x200x256 main_cst
  let main_v2 : IVec S1024x200x256 1 := cmpf .olt main_v0 main_v1
  let main_c : IVec S_ 1 := constantI S_ 1 1#1
  let main_v3 : IVec S_ 1 := (fun x v => Host.reduce IntOp.andi x v reducesTo_S1024x200x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_v13 main_v16
-- ==== Kernel.lean ====
abbrev S1024x200x256 : Shape := ⟨3, ![1024, 200, 256]⟩
abbrev S1024x200 : Shape := ⟨2, ![1024, 200]⟩
abbrev S256x256 : Shape := ⟨2, ![256, 256]⟩
abbrev S256x1 : Shape := ⟨2, ![256, 1]⟩
abbrev S256 : Shape := ⟨1, ![256]⟩
abbrev S1 : Shape := ⟨1, ![1]⟩
abbrev S100000x256 : Shape := ⟨2, ![100000, 256]⟩
abbrev S_ : Shape := ⟨0, ![]⟩
abbrev S1024x200x1 : Shape := ⟨3, ![1024, 200, 1]⟩
abbrev S1024x256 : Shape := ⟨2, ![1024, 256]⟩
abbrev S8x200x256 : Shape := ⟨3, ![8, 200, 256]⟩
abbrev S8x256 : Shape := ⟨2, ![8, 256]⟩
abbrev S8x200x1 : Shape := ⟨3, ![8, 200, 1]⟩
abbrev S1600x256 : Shape := ⟨2, ![1600, 256]⟩
abbrev S1x256 : Shape := ⟨2, ![1, 256]⟩
abbrev S1600x1 : Shape := ⟨2, ![1600, 1]⟩
abbrev S1x1 : Shape := ⟨2, ![1, 1]⟩
abbrev S8x1 : Shape := ⟨2, ![8, 1]⟩
abbrev S8x1x1 : Shape := ⟨3, ![8, 1, 1]⟩

abbrev nBuf : Space → Nat
  | .hbm => 24
  | .vmem => 13
  | .smem => 0
  | _ => 0

abbrev bufTy : (tb : Table) → Fin (tcTables nBuf tb) → BufTy
  | .hbm, ⟨0, _⟩ => ⟨S1024x200x256, .f32⟩
  | .hbm, ⟨1, _⟩ => ⟨S1024x200, .i32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S256, .f32⟩
  | .hbm, ⟨6, _⟩ => ⟨S1, .f32⟩
  | .hbm, ⟨7, _⟩ => ⟨S100000x256, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S256, .f32⟩
  | .hbm, ⟨12, _⟩ => ⟨S100000x256, .f32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200x1, .i32⟩
  | .hbm, ⟨21, _⟩ => ⟨S1024x200x256, .f32⟩
  | .hbm, ⟨22, _⟩ => ⟨S1024x256, .f32⟩
  | .hbm, ⟨23, _⟩ => ⟨S1024x200x1, .f32⟩
  | .local _ .vmem, ⟨0, _⟩ => ⟨S8x200x256, .f32⟩
  | .local _ .vmem, ⟨1, _⟩ => ⟨S8x200x256, .f32⟩
  | .local _ .vmem, ⟨2, _⟩ => ⟨S8x200x256, .f32⟩
  | .local _ .vmem, ⟨3, _⟩ => ⟨S8x200x256, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256, .f32⟩
  | .local _ .vmem, ⟨8, _⟩ => ⟨S1, .f32⟩
  | .local _ .vmem, ⟨9, _⟩ => ⟨S8x256, .f32⟩
  | .local _ .vmem, ⟨10, _⟩ => ⟨S8x256, .f32⟩
  | .local _ .vmem, ⟨11, _⟩ => ⟨S8x200x1, .f32⟩
  | .local _ .vmem, ⟨12, _⟩ => ⟨S8x200x1, .f32⟩
  | _, _ => ⟨S1024x200x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  bcast_S_S256 : S_.BroadcastsInDim S256 (![] : Fin 0 → Fin S256.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  inb_S8x200x256_S8x200x256_0_0_0 : ∀ a, (![0, 0, 0] : Fin 3 → Nat) a + S8x200x256.size a ≤ S8x200x256.size a
  h_S8x200x256 : 0 < S8x200x256.numel
  shapeCasts_S8x200x256_S8x200x256 : S8x200x256.ShapeCasts S8x200x256
  shapeCasts_S8x200x256_S1600x256 : S8x200x256.ShapeCasts S1600x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1600x256 : S1x256.Broadcasts S1600x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S1600x1 : S1x1.Broadcasts S1600x1
  shapeCasts_S1600x1_S8x200x1 : S1600x1.ShapeCasts S8x200x1
  reduces_S8x200x1_S8x1 : S8x200x1.Reduces [1] S8x1
  shapeCasts_S8x1_S8x1x1 : S8x1.ShapeCasts S8x1x1
  broadcasts_S8x1x1_S8x200x1 : S8x1x1.Broadcasts S8x200x1
  inb_S8x200x1_S8x200x1_0_0_0 : ∀ a, (![0, 0, 0] : Fin 3 → Nat) a + S8x200x1.size a ≤ S8x200x1.size a
  h_S8x200x1 : 0 < S8x200x1.numel
  broadcasts_S8x200x1_S8x200x256 : S8x200x1.Broadcasts S8x200x256
  reduces_S8x200x256_S8x256 : S8x200x256.Reduces [1] S8x256
  inb_S8x256_S8x256_0_0 : ∀ a, (![0, 0] : Fin 2 → Nat) a + S8x256.size a ≤ S8x256.size a
  h_S8x256 : 0 < S8x256.numel
  scatter_S100000x256_S1_S256_0_0_0_0_wf : ScatterDims.WF S100000x256 S1 S256 [0] [0] [0] 0
  gather_S100000x256_S1024x200x1_S1024x200x256_2_0_n_n_0_2_1256_wf : GatherDims.WF S100000x256 S1024x200x1 S1024x200x256 [2] [0] [] [0] [] 2 ![1, 256]
  dot_S1600x256_S256x256_S1600x256_1_0_0_1_n_n_wf : DotDims.WF S1600x256 S256x256 S1600x256 [1] [0] [0] [1] [] []
  dot_S1600x256_S256x1_S1600x1_1_0_0_1_n_n_wf : DotDims.WF S1600x256 S256x1 S1600x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x256.size a ≤ S1024x200x256.size a
  hwx0_0 : ∀ i : grid0.Coords, EltTy.bits .f32 = 32 ∨ (Rect.block (s := S1024x200x256) S8x200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200x256.size a ≤ S1024x200x256.size a
  hwx0_1 : ∀ i : grid0.Coords, EltTy.bits .f32 = 32 ∨ (Rect.block (s := S1024x200x256) S8x200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S1024x256.size a
  hwx0_7 : ∀ i : grid0.Coords, EltTy.bits .f32 = 32 ∨ (Rect.block (s := S1024x256) S8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x200x1.size a ≤ S1024x200x1.size a
  hwx0_8 : ∀ i : grid0.Coords, EltTy.bits .f32 = 32 ∨ (Rect.block (s := S1024x200x1) S8x200x1.size (cc0_transform_8 i) (hinb0_8 i)).WholeWords (EltTy.packing .f32)

variable [Facts₀]

def scatter_S100000x256_S1_S256_0_0_0_0 : ScatterDims S100000x256 S1 S256 where
  updateWindowDims := [0]
  insertedWindowDims := [0]
  scatterDimsToOperandDims := [0]
  indexVectorDim := 0
  wf := scatter_S100000x256_S1_S256_0_0_0_0_wf
def gather_S100000x256_S1024x200x1_S1024x200x256_2_0_n_n_0_2_1256 : GatherDims S100000x256 S1024x200x1 S1024x200x256 where
  offsetDims := [2]
  collapsedSliceDims := [0]
  operandBatchingDims := []
  startIndicesBatchingDims := []
  startIndexMap := [0]
  indexVectorDim := 2
  sliceSizes := ![1, 256]
  wf := gather_S100000x256_S1024x200x1_S1024x200x256_2_0_n_n_0_2_1256_wf
def dot_S1600x256_S256x256_S1600x256_1_0_0_1_n_n : DotDims S1600x256 S256x256 S1600x256 where
  lhsContracting := [1]
  rhsContracting := [0]
  lhsNonContracting := [0]
  rhsNonContracting := [1]
  lhsBatch := []
  rhsBatch := []
  wf := dot_S1600x256_S256x256_S1600x256_1_0_0_1_n_n_wf
def dot_S1600x256_S256x1_S1600x1_1_0_0_1_n_n : DotDims S1600x256 S256x1 S1600x1 where
  lhsContracting := [1]
  rhsContracting := [0]
  lhsNonContracting := [0]
  rhsNonContracting := [1]
  lhsBatch := []
  rhsBatch := []
  wf := dot_S1600x256_S256x1_S1600x1_1_0_0_1_n_n_wf

abbrev win0_0 : Pipeline.Window sig grid0 :=
  Pipeline.Window.ofSpec (Memref.whole main_arg0) S8x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S8x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S8x200x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x200x256 : Shape := ⟨3, ![1024, 200, 256]⟩
abbrev S1024x200 : Shape := ⟨2, ![1024, 200]⟩
abbrev S256x256 : Shape := ⟨2, ![256, 256]⟩
abbrev S256x1 : Shape := ⟨2, ![256, 1]⟩
abbrev S256 : Shape := ⟨1, ![256]⟩
abbrev S1 : Shape := ⟨1, ![1]⟩
abbrev S100000x256 : Shape := ⟨2, ![100000, 256]⟩
abbrev S_ : Shape := ⟨0, ![]⟩
abbrev S1024x200x1 : Shape := ⟨3, ![1024, 200, 1]⟩
abbrev S1x1x256 : Shape := ⟨3, ![1, 1, 256]⟩
abbrev S1x1x1 : Shape := ⟨3, ![1, 1, 1]⟩
abbrev S1024x1 : Shape := ⟨2, ![1024, 1]⟩
abbrev S1024x1x1 : Shape := ⟨3, ![1024, 1, 1]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S1024x200x256, .f32⟩
  | .hbm, ⟨1, _⟩ => ⟨S1024x200, .i32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S256, .f32⟩
  | .hbm, ⟨6, _⟩ => ⟨S1, .f32⟩
  | .hbm, ⟨7, _⟩ => ⟨S100000x256, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S256, .f32⟩
  | .hbm, ⟨12, _⟩ => ⟨S100000x256, .f32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200x1, .i32⟩
  | .hbm, ⟨21, _⟩ => ⟨S1024x200x256, .f32⟩
  | .hbm, ⟨22, _⟩ => ⟨S1024x200x256, .f32⟩
  | .hbm, ⟨23, _⟩ => ⟨S1024x200x256, .f32⟩
  | .hbm, ⟨24, _⟩ => ⟨S1024x200x256, .f32⟩
  | .hbm, ⟨25, _⟩ => ⟨S1x1x256, .f32⟩
  | .hbm, ⟨26, _⟩ => ⟨S1024x200x256, .f32⟩
  | .hbm, ⟨27, _⟩ => ⟨S1024x200x256, .f32⟩
  | .hbm, ⟨28, _⟩ => ⟨S_, .f32⟩
  | .hbm, ⟨29, _⟩ => ⟨S1024x200x256, .f32⟩
  | .hbm, ⟨30, _⟩ => ⟨S1024x200x256, .f32⟩
  | .hbm, ⟨31, _⟩ => ⟨S1024x200x1, .f32⟩
  | .hbm, ⟨32, _⟩ => ⟨S1x1x1, .f32⟩
  | .hbm, ⟨33, _⟩ => ⟨S1024x200x1, .f32⟩
  | .hbm, ⟨34, _⟩ => ⟨S1024x200x1, .f32⟩
  | .hbm, ⟨35, _⟩ => ⟨S1024x200x1, .f32⟩
  | .hbm, ⟨36, _⟩ => ⟨S_, .f32⟩
  | .hbm, ⟨37, _⟩ => ⟨S1024x1, .f32⟩
  | .hbm, ⟨38, _⟩ => ⟨S1024x1x1, .f32⟩
  | .hbm, ⟨39, _⟩ => ⟨S_, .f32⟩
  | .hbm, ⟨40, _⟩ => ⟨S1024x1x1, .f32⟩
  | .hbm, ⟨41, _⟩ => ⟨S1024x1x1, .f32⟩
  | .hbm, ⟨42, _⟩ => ⟨S1024x200x1, .f32⟩
  | .hbm, ⟨43, _⟩ => ⟨S1024x200x1, .f32⟩
  | .hbm, ⟨44, _⟩ => ⟨S1024x200x256, .f32⟩
  | .hbm, ⟨45, _⟩ => ⟨S1024x200x256, .f32⟩
  | .hbm, ⟨46, _⟩ => ⟨S_, .f32⟩
  | .hbm, ⟨47, _⟩ => ⟨S1024x256, .f32⟩
  | _, _ => ⟨S1024x200x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S256 : S_.BroadcastsInDim S256 (![] : Fin 0 → Fin S256.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S256_S1x1x256_2 : S256.BroadcastsInDim S1x1x256 (![2] : Fin 1 → Fin S1x1x256.rank)
  bcast_S1x1x256_S1024x200x256_0_1_2 : S1x1x256.BroadcastsInDim S1024x200x256 (![0, 1, 2] : Fin 3 → Fin S1024x200x256.rank)
  bcast_S_S1024x200x256 : S_.BroadcastsInDim S1024x200x256 (![] : Fin 0 → Fin S1024x200x256.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x1_d1 : S1024x200x1.ReducesTo [1] S1024x1
  h_S_ : 0 < S_.numel
  bcast_S1024x1_S1024x1x1_0_2 : S1024x1.BroadcastsInDim S1024x1x1 (![0, 2] : Fin 2 → Fin S1024x1x1.rank)
  bcast_S_S1024x1x1 : S_.BroadcastsInDim S1024x1x1 (![] : Fin 0 → Fin S1024x1x1.rank)
  bcast_S1024x1x1_S1024x200x1_0_1_2 : S1024x1x1.BroadcastsInDim S1024x200x1 (![0, 1, 2] : Fin 3 → Fin S1024x200x1.rank)
  bcast_S1024x200x1_S1024x200x256_0_1_2 : S1024x200x1.BroadcastsInDim S1024x200x256 (![0, 1, 2] : Fin 3 → Fin S1024x200x256.rank)
  reducesTo_S1024x200x256_S1024x256_d1 : S1024x200x256.ReducesTo [1] S1024x256
  scatter_S100000x256_S1_S256_0_0_0_0_wf : ScatterDims.WF S100000x256 S1 S256 [0] [0] [0] 0
  gather_S100000x256_S1024x200x1_S1024x200x256_2_0_n_n_0_2_1256_wf : GatherDims.WF S100000x256 S1024x200x1 S1024x200x256 [2] [0] [] [0] [] 2 ![1, 256]
  dot_S1024x200x256_S256x256_S1024x200x256_2_0_01_1_n_n_wf : DotDims.WF S1024x200x256 S256x256 S1024x200x256 [2] [0] [0, 1] [1] [] []
  dot_S1024x200x256_S256x1_S1024x200x1_2_0_01_1_n_n_wf : DotDims.WF S1024x200x256 S256x1 S1024x200x1 [2] [0] [0, 1] [1] [] []

variable [Facts₀]

def scatter_S100000x256_S1_S256_0_0_0_0 : ScatterDims S100000x256 S1 S256 where
  updateWindowDims := [0]
  insertedWindowDims := [0]
  scatterDimsToOperandDims := [0]
  indexVectorDim := 0
  wf := scatter_S100000x256_S1_S256_0_0_0_0_wf
def gather_S100000x256_S1024x200x1_S1024x200x256_2_0_n_n_0_2_1256 : GatherDims S100000x256 S1024x200x1 S1024x200x256 where
  offsetDims := [2]
  collapsedSliceDims := [0]
  operandBatchingDims := []
  startIndicesBatchingDims := []
  startIndexMap := [0]
  indexVectorDim := 2
  sliceSizes := ![1, 256]
  wf := gather_S100000x256_S1024x200x1_S1024x200x256_2_0_n_n_0_2_1256_wf
def dot_S1024x200x256_S256x256_S1024x200x256_2_0_01_1_n_n : DotDims S1024x200x256 S256x256 S1024x200x256 where
  lhsContracting := [2]
  rhsContracting := [0]
  lhsNonContracting := [0, 1]
  rhsNonContracting := [1]
  lhsBatch := []
  rhsBatch := []
  wf := dot_S1024x200x256_S256x256_S1024x200x256_2_0_01_1_n_n_wf
def dot_S1024x200x256_S256x1_S1024x200x1_2_0_01_1_n_n : DotDims S1024x200x256 S256x1 S1024x200x1 where
  lhsContracting := [2]
  rhsContracting := [0]
  lhsNonContracting := [0, 1]
  rhsNonContracting := [1]
  lhsBatch := []
  rhsBatch := []
  wf := dot_S1024x200x256_S256x1_S1024x200x1_2_0_01_1_n_n_wf

class Facts : Prop extends Facts₀ where

variable [Facts]
-- ==== Proof.AttentionRow.lean ====
/-
  Additive attention over one batch row, on the extended reals.

  A batch row holds 200 items; item `d` has a feature row `X d` and an embedding row `O d`, each of 256 numbers.
  Its score is `logit = Σ_k max((Σ_f X d f · Wrv f k + Σ_f O d f · Wid f k) + b1 k, 0) · h k + b2`, its weight is
  `exp logit / (Σ_d' exp logit_d' + ε)` (no maximum is subtracted), and the row's pooled feature `f` is
  `Σ_d weight d · X d f`. The zero of the rectifier and the `ε` of the denominator are kept as their binary32 words:
  both programs spell the same words, so they are never evaluated.

  The two array functions at the end read these row functions off whole arrays: the weights as a [1024, 200, 1]
  array and the pooled features as a [1024, 256] array, each batch row using only its own slices.
-/
import Idealize.ShloMosaic.PureOps.Ideal
import Idealize.ShloMosaic.Lib.ValueIdx

noncomputable section

namespace Cert.Attention

open Idealize.ShloMosaic Idealize.ShloMosaic.ValueIdx

/-- The binary32 zero the rectifier compares with. -/
abbrev zeroW : EReal := Ideal.ofBits .f32 0x00000000#32
/-- The binary32 word nearest 1e-8, added to every denominator. -/
abbrev epsW : EReal := Ideal.ofBits .f32 0x322BCC77#32

section Row

variable (Wrv Wid : Fin 256 → Fin 256 → EReal) (b1 h : Fin 256 → EReal) (b2 : EReal)

/-- The hidden unit `k` of one item before the rectifier. -/
def hidden (x o : Fin 256 → EReal) (k : Fin 256) : EReal :=
  (∑ f : Fin 256, x f * Wrv f k + ∑ f : Fin 256, o f * Wid f k) + b1 k

/-- One item's score. -/
def logit (x o : Fin 256 → EReal) : EReal :=
  (∑ k : Fin 256, max (hidden Wrv Wid b1 x o k) zeroW * h k) + b2

/-- The exponential of item `d`'s score. -/
def expScore (X O : Fin 200 → Fin 256 → EReal) (d : Fin 200) : EReal :=
  Ideal.exp (logit Wrv Wid b1 h b2 (X d) (O d))

/-- The row's denominator: the exponentials' sum plus `ε`. -/
def denom (X O : Fin 200 → Fin 256 → EReal) : EReal :=
  (∑ d : Fin 200, expScore Wrv Wid b1 h b2 X O d) + epsW

/-- Item `d`'s attention weight within its row. -/
def weight (X O : Fin 200 → Fin 256 → EReal) (d : Fin 200) : EReal :=
  Ideal.div (expScore Wrv Wid b1 h b2 X O d) (denom Wrv Wid b1 h b2 X O)

/-- The row's pooled feature `f`: the weighted sum of its items' features. -/
def pooled (X O : Fin 200 → Fin 256 → EReal) (f : Fin 256) : EReal :=
  ∑ d : Fin 200, weight Wrv Wid b1 h b2 X O d * X d f

end Row

/-! ## The same, read off whole arrays -/

section Arrays

variable (feat oe : (⟨3, ![1024, 200, 256]⟩ : Shape).Idx → EReal)
  (wrv wid : (⟨2, ![256, 256]⟩ : Shape).Idx → EReal) (hv : (⟨2, ![256, 1]⟩ : Shape).Idx → EReal)
  (bias1 : (⟨1, ![256]⟩ : Shape).Idx → EReal) (bias2 : (⟨1, ![1]⟩ : Shape).Idx → EReal)

/-- The attention weights as a [1024, 200, 1] array. -/
def weightArr : (⟨3, ![1024, 200, 1]⟩ : Shape).Idx → EReal := fun i =>
  weight (fun f k => wrv (ix2 f k)) (fun f k => wid (ix2 f k)) (fun k => bias1 (ix1 k)) (fun k => hv (ix2 k (0 : Fin 1)))
    (bias2 (ix1 (0 : Fin 1))) (fun d f => feat (ix3 (i 0) d f)) (fun d f => oe (ix3 (i 0) d f)) (i 1)

/-- The pooled features as a [1024, 256] array. -/
def pooledArr : (⟨2, ![1024, 256]⟩ : Shape).Idx → EReal := fun i =>
  pooled (fun f k => wrv (ix2 f k)) (fun f k => wid (ix2 f k)) (fun k => bias1 (ix1 k)) (fun k => hv (ix2 k (0 : Fin 1)))
    (bias2 (ix1 (0 : Fin 1))) (fun d f => feat (ix3 (i 0) d f)) (fun d f => oe (ix3 (i 0) d f)) (i 1)

end Arrays

end Cert.Attention

end
-- ==== Proof.KernelBlock.lean ====
/-
  One grid point of the kernel: the body's two stored values, from a block of 8 batch rows, are the attention weights
  and the pooled features of `Cert.Attention` of those rows.

  The body flattens the block's 8 × 200 items into 1600 matrix rows (item `d` of batch row `b` is matrix row
  `200 b + d`), takes the two 256-term contractions and the 256-term contraction with `h` as matrix products into a
  zero accumulator, unflattens the scores to [8, 200, 1], and reduces along the item axis twice.
-/
import proofs.«106439_j46042049413570_1_alg».proof.Proof.Gen.KernelIdeal.Skeleton
import proofs.«106439_j46042049413570_1_alg».proof.Proof.AttentionRow
import Idealize.ShloMosaic.Lib.Pipeline.Value
import Idealize.ShloMosaic.Lib.ValueIdx
import Idealize.ShloMosaic.PureOps.Ideal.Laws

noncomputable section

namespace Cert.Attention.Kernel

open Cert.KernelIdeal Cert.KernelIdeal.Gen Idealize.ShloMosaic Idealize.ShloMosaic.ValueIdx Cert.Attention

/-- Item `d` of batch row `b` as a row of the flattened 1600-row matrix. -/
def rowOf (b : Fin 8) (d : Fin 200) : Fin 1600 := ⟨b.val * 200 + d.val, by omega⟩

/-! ## The layout operations at an index -/

/-- The flattening [8, 200, 256] → [1600, 256]. -/
theorem flatten_apply {α : Type} (v : S8x200x256.Idx → α) (b : Fin 8) (d : Fin 200) (f : Fin 256) :
    shapeCast S1600x256 v Facts₀.shapeCasts_S8x200x256_S1600x256 (ix2 (rowOf b d) f) = v (ix3 b d f) := by
  refine shapeCast_apply v _ (ix2 (rowOf b d) f) (ix3 b d f) ?_
  rw [Shape.rowMajor_val_three, Shape.rowMajor_val_two]
  rfl

/-- The unflattening [1600, 1] → [8, 200, 1]. -/
theorem unflatten_apply {α : Type} (v : S1600x1.Idx → α) (b : Fin 8) (d : Fin 200) (z : Fin 1) :
    shapeCast S8x200x1 v Facts₀.shapeCasts_S1600x1_S8x200x1 (ix3 b d z) = v (ix2 (rowOf b d) z) := by
  refine shapeCast_apply v _ (ix3 b d z) (ix2 (rowOf b d) z) ?_
  rw [Shape.rowMajor_val_three, Shape.rowMajor_val_two]
  rfl

/-- The bias vector [256] laid along every one of the 1600 rows. -/
theorem bias_row_apply {α : Type} (v : S256.Idx → α) (r : Fin 1600) (k : Fin 256) :
    broadcastTo S1600x256 (shapeCast S1x256 v Facts₀.shapeCasts_S256_S1x256) Facts₀.broadcasts_S1x256_S1600x256 (ix2 r k) = v (ix1 k) := by
  refine (broadcastTo_apply _ _ (ix2 r k) (ix2 (0 : Fin 1) k) (fun a => ?_)).trans ?_
  · match a with
    | ⟨0, _⟩ => rfl
    | ⟨1, _⟩ => rfl
  · refine shapeCast_apply v _ (ix2 (0 : Fin 1) k) (ix1 k) ?_
    rw [Shape.rowMajor_val_one, Shape.rowMajor_val_two]
    show k.val = 0 * 256 + k.val
    omega

/-- The one-entry bias [1] laid along the 1600-row column. -/
theorem bias_col_apply {α : Type} (v : S1.Idx → α) (r : Fin 1600) (z : Fin 1) :
    broadcastTo S1600x1 (shapeCast S1x1 v Facts₀.shapeCasts_S1_S1x1) Facts₀.broadcasts_S1x1_S1600x1 (ix2 r z) = v (ix1 (0 : Fin 1)) := by
  refine (broadcastTo_apply _ _ (ix2 r z) (ix2 (0 : Fin 1) (0 : Fin 1)) (fun a => ?_)).trans ?_
  · match a with
    | ⟨0, _⟩ => rfl
    | ⟨1, _⟩ => rfl
  · refine shapeCast_apply v _ (ix2 (0 : Fin 1) (0 : Fin 1)) (ix1 (0 : Fin 1)) ?_
    rw [Shape.rowMajor_val_one, Shape.rowMajor_val_two]
    rfl

/-- A [8, 1, 1] column of per-row values laid along the 200 items of each row. -/
theorem per_row_apply {α : Type} (v : S8x1x1.Idx → α) (b : Fin 8) (d : Fin 200) (z : Fin 1) :
    broadcastTo S8x200x1 v Facts₀.broadcasts_S8x1x1_S8x200x1 (ix3 b d z) = v (ix3 b (0 : Fin 1) (0 : Fin 1)) := by
  refine broadcastTo_apply _ _ (ix3 b d z) (ix3 b (0 : Fin 1) (0 : Fin 1)) (fun a => ?_)
  match a with
  | ⟨0, _⟩ => rfl
  | ⟨1, _⟩ => rfl
  | ⟨2, _⟩ => rfl

/-- The keep-dims cast [8, 1] → [8, 1, 1]. -/
theorem keepdims_apply {α : Type} (v : S8x1.Idx → α) (b : Fin 8) :
    shapeCast S8x1x1 v Facts₀.shapeCasts_S8x1_S8x1x1 (ix3 b (0 : Fin 1) (0 : Fin 1)) = v (ix2 b (0 : Fin 1)) := by
  refine shapeCast_apply v _ (ix3 b (0 : Fin 1) (0 : Fin 1)) (ix2 b (0 : Fin 1)) ?_
  rw [Shape.rowMajor_val_three, Shape.rowMajor_val_two]
  show b.val * 1 + 0 = (b.val * 1 + 0) * 1 + 0
  omega

/-- An item's weight laid along its 256 features. -/
theorem per_item_apply {α : Type} (v : S8x200x1.Idx → α) (b : Fin 8) (d : Fin 200) (f : Fin 256) :
    broadcastTo S8x200x256 v Facts₀.broadcasts_S8x200x1_S8x200x256 (ix3 b d f) = v (ix3 b d (0 : Fin 1)) := by
  refine broadcastTo_apply _ _ (ix3 b d f) (ix3 b d (0 : Fin 1)) (fun a => ?_)
  match a with
  | ⟨0, _⟩ => rfl
  | ⟨1, _⟩ => rfl
  | ⟨2, _⟩ => rfl

/-! ## The two sums along the item axis -/

/-- The sum of a [8, 200, 1] value over a row's 200 items. -/
theorem item_sum_apply (v : FVec Ideal S8x200x1 .f32) (b : Fin 8) :
    multiReduction .add [1] S8x1 v 0x00000000#32 Facts₀.reduces_S8x200x1_S8x1 (.inl rfl) rfl (ix2 b (0 : Fin 1))
      = ∑ d : Fin 200, v (ix3 b d (0 : Fin 1)) := by
  refine (Ideal.multiReduction_add_single v 0x00000000#32 Facts₀.reduces_S8x200x1_S8x1 (.inl rfl) rfl (ix2 b (0 : Fin 1))).trans ?_
  exact Finset.sum_congr rfl fun d _ => congrArg v (funext fun a => Fin.ext (by
    match a with | ⟨0, _⟩ => rfl | ⟨1, _⟩ => rfl | ⟨2, _⟩ => rfl))

/-- The sum of a [8, 200, 256] value over a row's 200 items, feature by feature. -/
theorem feature_sum_apply (v : FVec Ideal S8x200x256 .f32) (b : Fin 8) (f : Fin 256) :
    multiReduction .add [1] S8x256 v 0x00000000#32 Facts₀.reduces_S8x200x256_S8x256 (.inl rfl) rfl (ix2 b f)
      = ∑ d : Fin 200, v (ix3 b d f) := by
  refine (Ideal.multiReduction_add_single v 0x00000000#32 Facts₀.reduces_S8x200x256_S8x256 (.inl rfl) rfl (ix2 b f)).trans ?_
  exact Finset.sum_congr rfl fun d _ => congrArg v (funext fun a => Fin.ext (by
    match a with | ⟨0, _⟩ => rfl | ⟨1, _⟩ => rfl | ⟨2, _⟩ => rfl))

/-! ## The matrix products at an index -/

/-- The dimension numbers of the two 256 × 256 products and of the product with `h`: rows × contraction times contraction × columns. -/
abbrev dotHidden : DotDims S1600x256 S256x256 S1600x256 := dot_S1600x256_S256x256_S1600x256_1_0_0_1_n_n
abbrev dotScore : DotDims S1600x256 S256x1 S1600x1 := dot_S1600x256_S256x1_S1600x1_1_0_0_1_n_n

theorem hidden_lhs0 (i : S1600x256.Idx) (q : dotHidden.contr.Idx) : (dotHidden.lhsIdx i q 0).val = (i 0).val := by
  unfold DotDims.lhsIdx
  rw [dif_neg (show ¬(0 : Fin S1600x256.rank) ∈ dotHidden.lhsBatch by decide), dif_pos (show (0 : Fin S1600x256.rank) ∈ dotHidden.lhsNonContracting by decide)]
  rfl
theorem hidden_lhs1 (i : S1600x256.Idx) (q : dotHidden.contr.Idx) : (dotHidden.lhsIdx i q 1).val = (q ⟨0, by decide⟩).val :=
  dotHidden.lhsIdx_val_of_single rfl i q
theorem hidden_rhs0 (i : S1600x256.Idx) (q : dotHidden.contr.Idx) : (dotHidden.rhsIdx i q 0).val = (q ⟨0, by decide⟩).val :=
  dotHidden.rhsIdx_val_of_single rfl i q
theorem hidden_rhs1 (i : S1600x256.Idx) (q : dotHidden.contr.Idx) : (dotHidden.rhsIdx i q 1).val = (i 1).val := by
  unfold DotDims.rhsIdx
  rw [dif_neg (show ¬(1 : Fin S256x256.rank) ∈ dotHidden.rhsBatch by decide), dif_pos (show (1 : Fin S256x256.rank) ∈ dotHidden.rhsNonContracting by decide)]
  rfl

/-- A [1600, 256] × [256, 256] product into the zero accumulator, at row `r` and column `k`. -/
theorem hidden_product_apply (lhs : FVec Ideal S1600x256 .bf16) (rhs : FVec Ideal S256x256 .bf16) (r : Fin 1600) (k : Fin 256) :
    matmul dotHidden none lhs rhs (constant (F := Ideal) S1600x256 .f32 0x00000000#32) (ix2 r k)
      = ∑ f : Fin 256, lhs (ix2 r f) * rhs (ix2 f k) := by
  simp only [matmul]
  rw [Ideal.matmul_constant_zero_apply, ← Equiv.sum_comp (contrEquiv1 dotHidden 256 rfl rfl).symm]
  refine Finset.sum_congr rfl fun f _ => ?_
  have hk := contrEquiv1_symm_val dotHidden 256 rfl rfl f
  have el : dotHidden.lhsIdx (ix2 r k) ((contrEquiv1 dotHidden 256 rfl rfl).symm f) = ix2 r f := funext fun a => Fin.ext (by
    match a with
    | ⟨0, _⟩ => exact hidden_lhs0 _ _
    | ⟨1, _⟩ => exact (hidden_lhs1 _ _).trans hk)
  have er : dotHidden.rhsIdx (ix2 r k) ((contrEquiv1 dotHidden 256 rfl rfl).symm f) = ix2 f k := funext fun a => Fin.ext (by
    match a with
    | ⟨0, _⟩ => exact (hidden_rhs0 _ _).trans hk
    | ⟨1, _⟩ => exact hidden_rhs1 _ _)
  rw [el, er]

theorem score_lhs0 (i : S1600x1.Idx) (q : dotScore.contr.Idx) : (dotScore.lhsIdx i q 0).val = (i 0).val := by
  unfold DotDims.lhsIdx
  rw [dif_neg (show ¬(0 : Fin S1600x256.rank) ∈ dotScore.lhsBatch by decide), dif_pos (show (0 : Fin S1600x256.rank) ∈ dotScore.lhsNonContracting by decide)]
  rfl
theorem score_lhs1 (i : S1600x1.Idx) (q : dotScore.contr.Idx) : (dotScore.lhsIdx i q 1).val = (q ⟨0, by decide⟩).val :=
  dotScore.lhsIdx_val_of_single rfl i q
theorem score_rhs0 (i : S1600x1.Idx) (q : dotScore.contr.Idx) : (dotScore.rhsIdx i q 0).val = (q ⟨0, by decide⟩).val :=
  dotScore.rhsIdx_val_of_single rfl i q
theorem score_rhs1 (i : S1600x1.Idx) (q : dotScore.contr.Idx) : (dotScore.rhsIdx i q 1).val = (i 1).val := by
  unfold DotDims.rhsIdx
  rw [dif_neg (show ¬(1 : Fin S256x1.rank) ∈ dotScore.rhsBatch by decide), dif_pos (show (1 : Fin S256x1.rank) ∈ dotScore.rhsNonContracting by decide)]
  rfl

/-- The [1600, 256] × [256, 1] product into the zero accumulator, at row `r`. -/
theorem score_product_apply (lhs : FVec Ideal S1600x256 .bf16) (rhs : FVec Ideal S256x1 .bf16) (r : Fin 1600) (z : Fin 1) :
    matmul dotScore none lhs rhs (constant (F := Ideal) S1600x1 .f32 0x00000000#32) (ix2 r z)
      = ∑ k : Fin 256, lhs (ix2 r k) * rhs (ix2 k z) := by
  simp only [matmul]
  rw [Ideal.matmul_constant_zero_apply, ← Equiv.sum_comp (contrEquiv1 dotScore 256 rfl rfl).symm]
  refine Finset.sum_congr rfl fun k _ => ?_
  have hk := contrEquiv1_symm_val dotScore 256 rfl rfl k
  have el : dotScore.lhsIdx (ix2 r z) ((contrEquiv1 dotScore 256 rfl rfl).symm k) = ix2 r k := funext fun a => Fin.ext (by
    match a with
    | ⟨0, _⟩ => exact score_lhs0 _ _
    | ⟨1, _⟩ => exact (score_lhs1 _ _).trans hk)
  have er : dotScore.rhsIdx (ix2 r z) ((contrEquiv1 dotScore 256 rfl rfl).symm k) = ix2 k z := funext fun a => Fin.ext (by
    match a with
    | ⟨0, _⟩ => exact (score_rhs0 _ _).trans hk
    | ⟨1, _⟩ => exact score_rhs1 _ _)
  rw [el, er]

/-! ## The body's two stored values -/

section Payloads

variable (x0 x1 : Vec Ideal S8x200x256 .f32) (w1 w2 : Vec Ideal S256x256 .f32) (bb : Vec Ideal S256 .f32)
  (hh : Vec Ideal S256x1 .f32) (b2 : Vec Ideal S1 .f32)

/-- The hidden units of the block's 1600 items before the rectifier, as the body computes them. -/
def preAct : FVec Ideal S1600x256 .f32 :=
  addf
    (addf
      (matmul dotHidden none (truncf .bf16 (shapeCast S1600x256 x0 Facts₀.shapeCasts_S8x200x256_S1600x256) Facts₀.bitsLt_bf16_f32)
        (truncf .bf16 w1 Facts₀.bitsLt_bf16_f32) (constant S1600x256 .f32 0x00000000#32))
      (matmul dotHidden none
        (truncf .bf16 (shapeCast S1600x256 (shapeCast S8x200x256 x1 Facts₀.shapeCasts_S8x200x256_S8x200x256) Facts₀.shapeCasts_S8x200x256_S1600x256) Facts₀.bitsLt_bf16_f32)
        (truncf .bf16 w2 Facts₀.bitsLt_bf16_f32) (constant S1600x256 .f32 0x00000000#32)))
    (broadcastTo S1600x256 (shapeCast S1x256 bb Facts₀.shapeCasts_S256_S1x256) Facts₀.broadcasts_S1x256_S1600x256)

/-- The block's scores, laid out [8, 200, 1], as the body computes them. -/
def scores : FVec Ideal S8x200x1 .f32 :=
  shapeCast S8x200x1
    (addf
      (matmul dotScore none
        (truncf .bf16 (maximumf (preAct x0 x1 w1 w2 bb) (broadcast S1600x256 (Scalar.ofBits .f32 0x00000000#32))) Facts₀.bitsLt_bf16_f32)
        (truncf .bf16 hh Facts₀.bitsLt_bf16_f32) (constant S1600x1 .f32 0x00000000#32))
      (broadcastTo S1600x1 (shapeCast S1x1 b2 Facts₀.shapeCasts_S1_S1x1) Facts₀.broadcasts_S1x1_S1600x1))
    Facts₀.shapeCasts_S1600x1_S8x200x1

/-- The stored weights are the exponentials of the scores over their row sums plus `ε`: the body's text, its shared
    subterms named. -/
theorem pay2_eq :
    k0_pay2 x0 x1 w1 w2 bb hh b2
      = divf (exp (scores x0 x1 w1 w2 bb hh b2))
          (broadcastTo S8x200x1
            (addf
              (shapeCast S8x1x1
                (multiReduction .add [1] S8x1 (exp (scores x0 x1 w1 w2 bb hh b2)) 0x00000000#32 Facts₀.reduces_S8x200x1_S8x1 (.inl rfl) rfl)
                Facts₀.shapeCasts_S8x1_S8x1x1)
              (broadcast S8x1x1 (Scalar.ofBits .f32 0x322BCC77#32)))
            Facts₀.broadcasts_S8x1x1_S8x200x1) := rfl

/-- Hidden unit `k` of item `d` of the block's batch row `b`. -/
theorem preAct_apply (b : Fin 8) (d : Fin 200) (k : Fin 256) :
    preAct x0 x1 w1 w2 bb (ix2 (rowOf b d) k)
      = hidden (fun f k => w1 (ix2 f k)) (fun f k => w2 (ix2 f k)) (fun k => bb (ix1 k))
          (fun f => x0 (ix3 b d f)) (fun f => x1 (ix3 b d f)) k := by
  unfold preAct
  rw [addf_apply, addf_apply, hidden_product_apply, hidden_product_apply, bias_row_apply]
  simp only [truncf_apply, flatten_apply, shapeCast_self]
  rfl

/-- The score of item `d` of the block's batch row `b`. -/
theorem scores_apply (b : Fin 8) (d : Fin 200) :
    scores x0 x1 w1 w2 bb hh b2 (ix3 b d (0 : Fin 1))
      = logit (fun f k => w1 (ix2 f k)) (fun f k => w2 (ix2 f k)) (fun k => bb (ix1 k)) (fun k => hh (ix2 k (0 : Fin 1)))
          (b2 (ix1 (0 : Fin 1))) (fun f => x0 (ix3 b d f)) (fun f => x1 (ix3 b d f)) := by
  unfold scores
  rw [unflatten_apply, addf_apply, score_product_apply, bias_col_apply]
  simp only [truncf_apply, maximumf_apply, broadcast_apply, preAct_apply]
  rfl

/-- The weight the body stores for item `d` of the block's batch row `b`. -/
theorem pay2_apply (b : Fin 8) (d : Fin 200) :
    k0_pay2 x0 x1 w1 w2 bb hh b2 (ix3 b d (0 : Fin 1))
      = weight (fun f k => w1 (ix2 f k)) (fun f k => w2 (ix2 f k)) (fun k => bb (ix1 k)) (fun k => hh (ix2 k (0 : Fin 1)))
          (b2 (ix1 (0 : Fin 1))) (fun d f => x0 (ix3 b d f)) (fun d f => x1 (ix3 b d f)) d := by
  rw [pay2_eq, divf_apply, per_row_apply, addf_apply, keepdims_apply, item_sum_apply, broadcast_apply]
  simp only [exp, scores_apply]
  rfl

/-- The pooled feature the body stores: the weighted sum over the row's items, for any stored weights. -/
theorem pay1_apply (v35 : FVec Ideal S8x200x1 .f32) (b : Fin 8) (f : Fin 256) :
    k0_pay1 x0 v35 (ix2 b f) = ∑ d : Fin 200, v35 (ix3 b d (0 : Fin 1)) * x0 (ix3 b d f) := by
  unfold k0_pay1
  rw [feature_sum_apply]
  simp only [mulf_apply, per_item_apply]

/-- The pooled feature `f` the body stores for the block's batch row `b`. -/
theorem pooled_apply (b : Fin 8) (f : Fin 256) :
    k0_pay1 x0 (k0_pay2 x0 x1 w1 w2 bb hh b2) (ix2 b f)
      = pooled (fun f k => w1 (ix2 f k)) (fun f k => w2 (ix2 f k)) (fun k => bb (ix1 k)) (fun k => hh (ix2 k (0 : Fin 1)))
          (b2 (ix1 (0 : Fin 1))) (fun d f => x0 (ix3 b d f)) (fun d f => x1 (ix3 b d f)) f := by
  rw [pay1_apply]
  simp only [pay2_apply]
  rfl

end Payloads

end Cert.Attention.Kernel

end
-- ==== Proof.BlocksToArrays.lean ====
/-
  From the kernel's 128 grid points to its two result arrays.

  Grid point `t` reads batch rows `8t … 8t + 7` of the features and of the gathered embeddings, and the whole of the
  five parameter arrays; it writes rows `8t … 8t + 7` of both results. A batch row's weights and pooled features
  depend on that row's slices alone, so what point `t` writes is block `t` of the whole-array functions
  `weightArr` and `pooledArr`; the 128 blocks cover both arrays (row `r` lies in block `r / 8`).
-/
import proofs.«106439_j46042049413570_1_alg».proof.Proof.Gen.KernelIdeal.Value
import proofs.«106439_j46042049413570_1_alg».proof.Proof.KernelBlock

noncomputable section

namespace Cert.Attention.Kernel

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the two batched inputs and the two outputs sit at block `t` of the batch
    axis and block 0 of the others; the five parameter windows always at block 0. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ win0_6.index t (0 : Fin 1) = 0
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## The parameter windows' blocks are the whole arrays -/

theorem wrv_block (c : Dev nD) (t : Fin cfg0.N) :
    (iblk m c 2 t : Vec Ideal S256x256 .f32) = (V m c main_arg2 : S256x256.Idx → EReal) := by
  obtain ⟨-, -, ⟨e0, e1⟩, -⟩ := index_facts t
  funext x
  show V m c main_arg2 (((cfg0.win 2).blk t).view.emb x) = V m c main_arg2 x
  refine congrArg (V m c main_arg2) (funext fun a => Fin.ext ?_)
  match a with
  | ⟨0, _⟩ => show win0_2.index t (0 : Fin 2) * 256 + 1 * (x 0).val = (x 0).val; omega
  | ⟨1, _⟩ => show win0_2.index t (1 : Fin 2) * 256 + 1 * (x 1).val = (x 1).val; omega

theorem wid_block (c : Dev nD) (t : Fin cfg0.N) :
    (iblk m c 3 t : Vec Ideal S256x256 .f32) = (V m c main_arg3 : S256x256.Idx → EReal) := by
  obtain ⟨-, -, -, ⟨e0, e1⟩, -⟩ := index_facts t
  funext x
  show V m c main_arg3 (((cfg0.win 3).blk t).view.emb x) = V m c main_arg3 x
  refine congrArg (V m c main_arg3) (funext fun a => Fin.ext ?_)
  match a with
  | ⟨0, _⟩ => show win0_3.index t (0 : Fin 2) * 256 + 1 * (x 0).val = (x 0).val; omega
  | ⟨1, _⟩ => show win0_3.index t (1 : Fin 2) * 256 + 1 * (x 1).val = (x 1).val; omega

theorem h_block (c : Dev nD) (t : Fin cfg0.N) :
    (iblk m c 4 t : Vec Ideal S256x1 .f32) = (V m c main_arg4 : S256x1.Idx → EReal) := by
  obtain ⟨-, -, -, -, ⟨e0, e1⟩, -⟩ := index_facts t
  funext x
  show V m c main_arg4 (((cfg0.win 4).blk t).view.emb x) = V m c main_arg4 x
  refine congrArg (V m c main_arg4) (funext fun a => Fin.ext ?_)
  match a with
  | ⟨0, _⟩ => show win0_4.index t (0 : Fin 2) * 256 + 1 * (x 0).val = (x 0).val; omega
  | ⟨1, _⟩ => show win0_4.index t (1 : Fin 2) * 1 + 1 * (x 1).val = (x 1).val; omega

theorem b1_block (c : Dev nD) (t : Fin cfg0.N) :
    (iblk m c 5 t : Vec Ideal S256 .f32) = (V m c main_arg5 : S256.Idx → EReal) := by
  obtain ⟨-, -, -, -, -, e0, -⟩ := index_facts t
  funext x
  show V m c main_arg5 (((cfg0.win 5).blk t).view.emb x) = V m c main_arg5 x
  refine congrArg (V m c main_arg5) (funext fun a => Fin.ext ?_)
  match a with
  | ⟨0, _⟩ => show win0_5.index t (0 : Fin 1) * 256 + 1 * (x 0).val = (x 0).val; omega

theorem b2_block (c : Dev nD) (t : Fin cfg0.N) :
    (iblk m c 6 t : Vec Ideal S1 .f32) = (V m c main_arg6 : S1.Idx → EReal) := by
  obtain ⟨-, -, -, -, -, -, e0, -⟩ := index_facts t
  funext x
  show V m c main_arg6 (((cfg0.win 6).blk t).view.emb x) = V m c main_arg6 x
  refine congrArg (V m c main_arg6) (funext fun a => Fin.ext ?_)
  match a with
  | ⟨0, _⟩ => show win0_6.index t (0 : Fin 1) * 1 + 1 * (x 0).val = (x 0).val; omega

/-! ## What the body stores, as blocks of the whole-array functions -/

section Block

variable (X0 X1 : Vec Ideal S8x200x256 .f32) (W1 W2 : Vec Ideal S256x256 .f32) (Bb : Vec Ideal S256 .f32)
  (H : Vec Ideal S256x1 .f32) (B2 : Vec Ideal S1 .f32) (feat oe : S1024x200x256.Idx → EReal)

/-- If the two batched blocks hold, in block row `y 0`, what the arrays hold in batch row `i 0`, the weight stored
    at `y` is the array function's value at `i` (same item). -/
theorem weights_block (y : S8x200x1.Idx) (i : S1024x200x1.Idx)
    (h0 : ∀ (d : Fin 200) (f : Fin 256), X0 (ix3 (y 0) d f) = feat (ix3 (i 0) d f))
    (h1 : ∀ (d : Fin 200) (f : Fin 256), X1 (ix3 (y 0) d f) = oe (ix3 (i 0) d f))
    (hd : (y 1).val = (i 1).val) :
    k0_pay2 X0 X1 W1 W2 Bb H B2 y = weightArr feat oe W1 W2 H Bb B2 i := by
  obtain ⟨b, d, z, rfl⟩ : ∃ (b : Fin 8) (d : Fin 200) (z : Fin 1), y = ix3 b d z := ⟨y 0, y 1, y 2, eq_ix3 y⟩
  obtain rfl : z = 0 := Subsingleton.elim _ _
  rw [pay2_apply]
  unfold weightArr
  have e0 : (fun (d : Fin 200) (f : Fin 256) => X0 (ix3 b d f)) = fun d f => feat (ix3 (i 0) d f) :=
    funext fun d => funext fun f => h0 d f
  have e1 : (fun (d : Fin 200) (f : Fin 256) => X1 (ix3 b d f)) = fun d f => oe (ix3 (i 0) d f) :=
    funext fun d => funext fun f => h1 d f
  have ed : d = i 1 := Fin.ext hd
  rw [e0, e1, ed]

/-- The same for the pooled feature stored at `y` (same feature). -/
theorem pooled_block (y : S8x256.Idx) (i : S1024x256.Idx)
    (h0 : ∀ (d : Fin 200) (f : Fin 256), X0 (ix3 (y 0) d f) = feat (ix3 (i 0) d f))
    (h1 : ∀ (d : Fin 200) (f : Fin 256), X1 (ix3 (y 0) d f) = oe (ix3 (i 0) d f))
    (hf : (y 1).val = (i 1).val) :
    k0_pay1 X0 (k0_pay2 X0 X1 W1 W2 Bb H B2) y = pooledArr feat oe W1 W2 H Bb B2 i := by
  obtain ⟨b, f, rfl⟩ : ∃ (b : Fin 8) (f : Fin 256), y = ix2 b f := ⟨y 0, y 1, eq_ix2 y⟩
  rw [pooled_apply]
  unfold pooledArr
  have e0 : (fun (d : Fin 200) (f : Fin 256) => X0 (ix3 b d f)) = fun d f => feat (ix3 (i 0) d f) :=
    funext fun d => funext fun f => h0 d f
  have e1 : (fun (d : Fin 200) (f : Fin 256) => X1 (ix3 b d f)) = fun d f => oe (ix3 (i 0) d f) :=
    funext fun d => funext fun f => h1 d f
  have ef : f = i 1 := Fin.ext hf
  rw [e0, e1, ef]

end Block

/-! ## What point `t` writes back -/

/-- The block of features at point `t`, block row `b`, is batch row `8t + b` of the array. -/
theorem feat_block (c : Dev nD) (t : Fin cfg0.N) (b : Fin 8) (B : Fin 1024) (hB : B.val = t.val * 8 + b.val)
    (d : Fin 200) (f : Fin 256) :
    (iblk m c 0 t : Vec Ideal S8x200x256 .f32) (ix3 b d f) = (V m c main_arg0 : S1024x200x256.Idx → EReal) (ix3 B d f) := by
  obtain ⟨⟨e0, e1, e2⟩, -⟩ := index_facts t
  show V m c main_arg0 (((cfg0.win 0).blk t).view.emb (ix3 b d f)) = V m c main_arg0 (ix3 B d f)
  refine congrArg (V m c main_arg0) (funext fun a => Fin.ext ?_)
  match a with
  | ⟨0, _⟩ => show win0_0.index t (0 : Fin 3) * 8 + 1 * b.val = B.val; omega
  | ⟨1, _⟩ => show win0_0.index t (1 : Fin 3) * 200 + 1 * d.val = d.val; omega
  | ⟨2, _⟩ => show win0_0.index t (2 : Fin 3) * 256 + 1 * f.val = f.val; omega

/-- The block of gathered embeddings likewise. -/
theorem emb_block (c : Dev nD) (t : Fin cfg0.N) (b : Fin 8) (B : Fin 1024) (hB : B.val = t.val * 8 + b.val)
    (d : Fin 200) (f : Fin 256) :
    (iblk m c 1 t : Vec Ideal S8x200x256 .f32) (ix3 b d f) = (V m c main_v9 : S1024x200x256.Idx → EReal) (ix3 B d f) := by
  obtain ⟨-, ⟨e0, e1, e2⟩, -⟩ := index_facts t
  show V m c main_v9 (((cfg0.win 1).blk t).view.emb (ix3 b d f)) = V m c main_v9 (ix3 B d f)
  refine congrArg (V m c main_v9) (funext fun a => Fin.ext ?_)
  match a with
  | ⟨0, _⟩ => show win0_1.index t (0 : Fin 3) * 8 + 1 * b.val = B.val; omega
  | ⟨1, _⟩ => show win0_1.index t (1 : Fin 3) * 200 + 1 * d.val = d.val; omega
  | ⟨2, _⟩ => show win0_1.index t (2 : Fin 3) * 256 + 1 * f.val = f.val; omega

/-- Point `t` writes back block `t` of the array of attention weights. -/
theorem weights_flushed (c : Dev nD) (t : Fin cfg0.N) :
    (dats m 0 c).flushed 8 t = ((cfg0.win 8).blk t).view.read (Elt Ideal)
      (weightArr (V m c main_arg0) (V m c main_v9) (V m c main_arg2) (V m c main_arg3) (V m c main_arg4) (V m c main_arg5) (V m c main_arg6)) := by
  rw [Cert.KernelIdeal.Value.flushed8]
  unfold out0_8
  rw [View.canon_unit_zero zeros3]
  simp only [View.ld_unit_zero (S := S8x200x256) zeros3, View.ld_unit_zero (S := S256x256) zeros2,
    View.ld_unit_zero (S := S256x1) zeros2, View.ld_unit_zero (S := S256) zeros1, View.ld_unit_zero (S := S1) zeros1]
  rw [wrv_block, wid_block, h_block, b1_block, b2_block]
  obtain ⟨-, -, -, -, -, -, -, -, ⟨o0, o1, o2⟩⟩ := index_facts t
  funext y
  show k0_pay2 (iblk m c 0 t) (iblk m c 1 t) _ _ _ _ _ y = weightArr _ _ _ _ _ _ _ (((cfg0.win 8).blk t).view.emb y)
  have hB : ((((cfg0.win 8).blk t).view.emb y) 0).val = t.val * 8 + (y 0).val := by
    show win0_8.index t (0 : Fin 3) * 8 + 1 * (y 0).val = _; omega
  refine weights_block _ _ _ _ _ _ _ _ _ y _ (fun d f => feat_block m c t _ _ hB d f) (fun d f => emb_block m c t _ _ hB d f) ?_
  show (y 1).val = win0_8.index t (1 : Fin 3) * 200 + 1 * (y 1).val; omega

/-- Point `t` writes back block `t` of the array of pooled features. -/
theorem pooled_flushed (c : Dev nD) (t : Fin cfg0.N) :
    (dats m 0 c).flushed 7 t = ((cfg0.win 7).blk t).view.read (Elt Ideal)
      (pooledArr (V m c main_arg0) (V m c main_v9) (V m c main_arg2) (V m c main_arg3) (V m c main_arg4) (V m c main_arg5) (V m c main_arg6)) := by
  rw [Cert.KernelIdeal.Value.flushed7]
  unfold out0_7
  rw [View.canon_unit_zero zeros2]
  simp only [View.ld_unit_zero (S := S8x200x256) zeros3, View.ld_unit_zero (S := S256x256) zeros2,
    View.ld_unit_zero (S := S256x1) zeros2, View.ld_unit_zero (S := S256) zeros1, View.ld_unit_zero (S := S1) zeros1]
  rw [wrv_block, wid_block, h_block, b1_block, b2_block]
  obtain ⟨-, -, -, -, -, -, -, ⟨o0, o1⟩, -⟩ := index_facts t
  funext y
  show k0_pay1 (iblk m c 0 t) (k0_pay2 (iblk m c 0 t) (iblk m c 1 t) _ _ _ _ _) y = pooledArr _ _ _ _ _ _ _ (((cfg0.win 7).blk t).view.emb y)
  have hB : ((((cfg0.win 7).blk t).view.emb y) 0).val = t.val * 8 + (y 0).val := by
    show win0_7.index t (0 : Fin 2) * 8 + 1 * (y 0).val = _; omega
  refine pooled_block _ _ _ _ _ _ _ _ _ y _ (fun d f => feat_block m c t _ _ hB d f) (fun d f => emb_block m c t _ _ hB d f) ?_
  show (y 1).val = win0_7.index t (1 : Fin 2) * 256 + 1 * (y 1).val; omega

/-! ## The blocks cover the arrays -/

theorem mem_weights_block (t : Fin cfg0.N) (i : S1024x200x1.Idx) :
    i ∈ ((cfg0.win 8).blk t).view.set ↔ ∀ a : Fin 3, win0_8.index t a * S8x200x1.size a ≤ (i a).val ∧ (i a).val < win0_8.index t a * S8x200x1.size a + S8x200x1.size a := by
  show i ∈ ((View.whole main_v10_1).slice (win0_8.rect t)).set ↔ _
  rw [View.set_slice_whole, Rect.mem_set_unit]
  exact Iff.rfl

theorem mem_pooled_block (t : Fin cfg0.N) (i : S1024x256.Idx) :
    i ∈ ((cfg0.win 7).blk t).view.set ↔ ∀ a : Fin 2, win0_7.index t a * S8x256.size a ≤ (i a).val ∧ (i a).val < win0_7.index t a * S8x256.size a + S8x256.size a := by
  show i ∈ ((View.whole main_v10_0).slice (win0_7.rect t)).set ↔ _
  rw [View.set_slice_whole, Rect.mem_set_unit]
  exact Iff.rfl

/-- Batch row `r` of the weights lies in the block of point `r / 8`. -/
theorem weights_cover (i : S1024x200x1.Idx) :
    ∃ t : Fin cfg0.N, (cfg0.win 8).flush t = true ∧ i ∈ ((cfg0.win 8).blk t).view.set := by
  have hi0 : (i 0).val < 1024 := (i 0).isLt
  have hi1 : (i 1).val < 200 := (i 1).isLt
  have hi2 : (i 2).val < 1 := (i 2).isLt
  have hN : grid0.N = 128 := N_0
  obtain ⟨t, ht⟩ : ∃ t : Fin cfg0.N, t.val = (i 0).val / 8 := ⟨⟨(i 0).val / 8, by show _ < grid0.N; omega⟩, rfl⟩
  obtain ⟨-, -, -, -, -, -, -, -, ⟨o0, o1, o2⟩⟩ := index_facts t
  refine ⟨t, flush0_8 t, ?_⟩
  rw [mem_weights_block]
  intro a
  match a with
  | ⟨0, _⟩ => show win0_8.index t (0 : Fin 3) * 8 ≤ (i 0).val ∧ (i 0).val < win0_8.index t (0 : Fin 3) * 8 + 8; omega
  | ⟨1, _⟩ => show win0_8.index t (1 : Fin 3) * 200 ≤ (i 1).val ∧ (i 1).val < win0_8.index t (1 : Fin 3) * 200 + 200; omega
  | ⟨2, _⟩ => show win0_8.index t (2 : Fin 3) * 1 ≤ (i 2).val ∧ (i 2).val < win0_8.index t (2 : Fin 3) * 1 + 1; omega

/-- Batch row `r` of the pooled features lies in the block of point `r / 8`. -/
theorem pooled_cover (i : S1024x256.Idx) :
    ∃ t : Fin cfg0.N, (cfg0.win 7).flush t = true ∧ i ∈ ((cfg0.win 7).blk t).view.set := by
  have hi0 : (i 0).val < 1024 := (i 0).isLt
  have hi1 : (i 1).val < 256 := (i 1).isLt
  have hN : grid0.N = 128 := N_0
  obtain ⟨t, ht⟩ : ∃ t : Fin cfg0.N, t.val = (i 0).val / 8 := ⟨⟨(i 0).val / 8, by show _ < grid0.N; omega⟩, rfl⟩
  obtain ⟨-, -, -, -, -, -, -, ⟨o0, o1⟩, -⟩ := index_facts t
  refine ⟨t, flush0_7 t, ?_⟩
  rw [mem_pooled_block]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 256 ≤ (i 1).val ∧ (i 1).val < win0_7.index t (1 : Fin 2) * 256 + 256; omega

/-! ## The two result arrays after the run -/

theorem weights_final (c : Dev nD) :
    (dats m 0 c).arrAt 8 cfg0.N
      = weightArr (V m c main_arg0) (V m c main_v9) (V m c main_arg2) (V m c main_arg3) (V m c main_arg4) (V m c main_arg5) (V m c main_arg6) :=
  (dats m 0 c).arrAt_eq_of_cover 8 _ (fun t _ => weights_flushed m c t) weights_cover

theorem pooled_final (c : Dev nD) :
    (dats m 0 c).arrAt 7 cfg0.N
      = pooledArr (V m c main_arg0) (V m c main_v9) (V m c main_arg2) (V m c main_arg3) (V m c main_arg4) (V m c main_arg5) (V m c main_arg6) :=
  (dats m 0 c).arrAt_eq_of_cover 7 _ (fun t _ => pooled_flushed m c t) pooled_cover

/-- The kernel's run: both results at the whole-array functions of the arrays as the region finds them (the five
    parameters and the features as launched, the gathered embeddings as the host operations left them), the
    arguments unchanged. -/
theorem run : θ_run defs (onTc (τ := τ) (main (F := Ideal))) ⟨m, fun _ => 0, ρ⟩ fun r => ∀ c : Dev nD,
      r.2.mem ((c : Thread nD τ).loc main_v10_0)
          = pooledArr (V m c main_arg0) (V m c main_v9) (V m c main_arg2) (V m c main_arg3) (V m c main_arg4) (V m c main_arg5) (V m c main_arg6)
      ∧ r.2.mem ((c : Thread nD τ).loc main_v10_1)
          = weightArr (V m c main_arg0) (V m c main_v9) (V m c main_arg2) (V m c main_arg3) (V m c main_arg4) (V m c main_arg5) (V m c main_arg6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (pooled_final m c), (h c).2.1.trans (weights_final m c), (h c).2.2⟩)
    (Cert.KernelIdeal.Value.run_blocks m ρ)

end Cert.Attention.Kernel

end
-- ==== Proof.ReferenceRows.lean ====
/-
  The reference program's two results are the attention weights and the pooled features of `Cert.Attention`:
  its three contractions are the sums of `hidden` and `logit`, its keep-dims row sum plus `ε` is `denom`, its
  quotient is `weight` and its last row sum is `pooled`; the gathered embedding rows enter as one array that is
  never opened.
-/
import proofs.«106439_j46042049413570_1_alg».proof.Proof.Gen.ReferenceIdeal.Read
import proofs.«106439_j46042049413570_1_alg».proof.Proof.AttentionRow

noncomputable section

namespace Cert.Attention.Reference

open Cert.ReferenceIdeal Cert.ReferenceIdeal.Read Idealize.ShloMosaic Idealize.ShloMosaic.ValueIdx Cert.Attention

variable (x0 : (⟨S1024x200x256, .f32⟩ : BufTy).Contents (Elt Ideal)) (x1 : (⟨S1024x200, .i32⟩ : BufTy).Contents (Elt Ideal))
  (x2 x3 : (⟨S256x256, .f32⟩ : BufTy).Contents (Elt Ideal)) (x4 : (⟨S256x1, .f32⟩ : BufTy).Contents (Elt Ideal))
  (x5 : (⟨S256, .f32⟩ : BufTy).Contents (Elt Ideal)) (x6 : (⟨S1, .f32⟩ : BufTy).Contents (Elt Ideal))
  (x7 : (⟨S100000x256, .f32⟩ : BufTy).Contents (Elt Ideal))

/-! ## Where each operation reads its operands -/

theorem lidx10 (B : Fin 1024) (d : Fin 200) (k f : Fin 256) : lidx_main_v10 (ix3 B d k) f = ix3 B d f :=
  funext fun a => Fin.ext (by match a with | ⟨0, _⟩ => rfl | ⟨1, _⟩ => rfl | ⟨2, _⟩ => rfl)
theorem ridx10 (B : Fin 1024) (d : Fin 200) (k f : Fin 256) : ridx_main_v10 (ix3 B d k) f = ix2 f k :=
  funext fun a => Fin.ext (by match a with | ⟨0, _⟩ => rfl | ⟨1, _⟩ => rfl)
theorem lidx11 (B : Fin 1024) (d : Fin 200) (k f : Fin 256) : lidx_main_v11 (ix3 B d k) f = ix3 B d f :=
  funext fun a => Fin.ext (by match a with | ⟨0, _⟩ => rfl | ⟨1, _⟩ => rfl | ⟨2, _⟩ => rfl)
theorem ridx11 (B : Fin 1024) (d : Fin 200) (k f : Fin 256) : ridx_main_v11 (ix3 B d k) f = ix2 f k :=
  funext fun a => Fin.ext (by match a with | ⟨0, _⟩ => rfl | ⟨1, _⟩ => rfl)
theorem idx13_14 (B : Fin 1024) (d : Fin 200) (k : Fin 256) : idx_main_v13 (idx_main_v14 (ix3 B d k)) = ix1 k :=
  funext fun a => Fin.ext (by match a with | ⟨0, _⟩ => rfl)

/-- The hidden unit `k` of item `(B, d)`. -/
theorem hidden_ref (B : Fin 1024) (d : Fin 200) (k : Fin 256) :
    val_main_v15 (F := Ideal) x0 x1 x2 x3 x5 x7 (ix3 B d k)
      = hidden (fun f k => x2 (ix2 f k)) (fun f k => x3 (ix2 f k)) (fun k => x5 (ix1 k))
          (fun f => x0 (ix3 B d f)) (fun f => val_main_v9 (F := Ideal) x1 x7 (ix3 B d f)) k := by
  rw [val_main_v15_apply, val_main_v12_apply, val_main_v10_apply, val_main_v11_apply, val_main_v14_apply, val_main_v13_apply]
  simp only [lidx10, ridx10, lidx11, ridx11, idx13_14, Ideal.addf_def]
  rfl

theorem lidx17 (B : Fin 1024) (d : Fin 200) (z : Fin 1) (k : Fin 256) : lidx_main_v17 (ix3 B d z) k = ix3 B d k :=
  funext fun a => Fin.ext (by match a with | ⟨0, _⟩ => rfl | ⟨1, _⟩ => rfl | ⟨2, _⟩ => rfl)
theorem ridx17 (B : Fin 1024) (d : Fin 200) (k : Fin 256) : ridx_main_v17 (ix3 B d (0 : Fin 1)) k = ix2 k (0 : Fin 1) :=
  funext fun a => Fin.ext (by match a with | ⟨0, _⟩ => rfl | ⟨1, _⟩ => rfl)
theorem idx18_19 (i : S1024x200x1.Idx) : idx_main_v18 (idx_main_v19 i) = ix1 (0 : Fin 1) :=
  funext fun a => Fin.ext (by match a with | ⟨0, _⟩ => rfl)

/-- The score of item `(B, d)`. -/
theorem logit_ref (B : Fin 1024) (d : Fin 200) :
    val_main_v20 (F := Ideal) x0 x1 x2 x3 x4 x5 x6 x7 (ix3 B d (0 : Fin 1))
      = logit (fun f k => x2 (ix2 f k)) (fun f k => x3 (ix2 f k)) (fun k => x5 (ix1 k)) (fun k => x4 (ix2 k (0 : Fin 1)))
          (x6 (ix1 (0 : Fin 1))) (fun f => x0 (ix3 B d f)) (fun f => val_main_v9 (F := Ideal) x1 x7 (ix3 B d f)) := by
  rw [val_main_v20_apply, val_main_v17_apply, val_main_v19_apply, val_main_v18_apply]
  simp only [lidx17, ridx17, idx18_19, val_main_v16_apply, val_main_call0_v0_apply, val_main_call0_cst_apply, hidden_ref,
    Ideal.addf_def, Ideal.maximumf_def, Ideal.ofBits_def]
  rfl

theorem idx22 (B : Fin 1024) (d : Fin 200) (k : Fin 200) :
    idx_main_v22 (idx_main_v23 (idx_main_v26 (ix3 B d (0 : Fin 1)))) k = ix3 B k (0 : Fin 1) :=
  funext fun a => Fin.ext (by match a with | ⟨0, _⟩ => rfl | ⟨1, _⟩ => rfl | ⟨2, _⟩ => rfl)

/-- The weight of item `(B, d)`. -/
theorem weight_ref (B : Fin 1024) (d : Fin 200) :
    val_main_v27 (F := Ideal) x0 x1 x2 x3 x4 x5 x6 x7 (ix3 B d (0 : Fin 1))
      = weight (fun f k => x2 (ix2 f k)) (fun f k => x3 (ix2 f k)) (fun k => x5 (ix1 k)) (fun k => x4 (ix2 k (0 : Fin 1)))
          (x6 (ix1 (0 : Fin 1))) (fun d f => x0 (ix3 B d f)) (fun d f => val_main_v9 (F := Ideal) x1 x7 (ix3 B d f)) d := by
  rw [val_main_v27_apply, val_main_v26_apply, val_main_v25_apply, val_main_v23_apply, val_main_v22_apply, val_main_v24_apply,
    val_main_cst_3_apply, val_main_cst_2_apply]
  simp only [idx22, val_main_v21_apply, logit_ref, Ideal.hostDivf_def, Ideal.hostUnary_exp_def, Ideal.addf_def, Ideal.ofBits_def,
    Ideal.ofBits_zero_f32, zero_add]
  rfl

theorem idx30 (B : Fin 1024) (f : Fin 256) (k : Fin 200) : idx_main_v30 (ix2 B f) k = ix3 B k f :=
  funext fun a => Fin.ext (by match a with | ⟨0, _⟩ => rfl | ⟨1, _⟩ => rfl | ⟨2, _⟩ => rfl)
theorem idx28 (B : Fin 1024) (k : Fin 200) (f : Fin 256) : idx_main_v28 (ix3 B k f) = ix3 B k (0 : Fin 1) :=
  funext fun a => Fin.ext (by match a with | ⟨0, _⟩ => rfl | ⟨1, _⟩ => rfl | ⟨2, _⟩ => rfl)

/-- The pooled feature `f` of batch row `B`. -/
theorem pooled_ref (B : Fin 1024) (f : Fin 256) :
    val_main_v30 (F := Ideal) x0 x1 x2 x3 x4 x5 x6 x7 (ix2 B f)
      = pooled (fun f k => x2 (ix2 f k)) (fun f k => x3 (ix2 f k)) (fun k => x5 (ix1 k)) (fun k => x4 (ix2 k (0 : Fin 1)))
          (x6 (ix1 (0 : Fin 1))) (fun d f => x0 (ix3 B d f)) (fun d f => val_main_v9 (F := Ideal) x1 x7 (ix3 B d f)) f := by
  rw [val_main_v30_apply, val_main_cst_4_apply]
  simp only [idx30, val_main_v29_apply, val_main_v28_apply, idx28, weight_ref, Ideal.mulf_def, Ideal.ofBits_def,
    Ideal.ofBits_zero_f32, zero_add]
  rfl

/-! ## The two results as whole arrays -/

/-- The reference's second result is the array of attention weights. -/
theorem weights_eq :
    val_main_v27 (F := Ideal) x0 x1 x2 x3 x4 x5 x6 x7 = weightArr x0 (val_main_v9 (F := Ideal) x1 x7) x2 x3 x4 x5 x6 := by
  funext i
  obtain ⟨B, d, z, rfl⟩ : ∃ (B : Fin 1024) (d : Fin 200) (z : Fin 1), i = ix3 B d z := ⟨i 0, i 1, i 2, eq_ix3 i⟩
  obtain rfl : z = 0 := Subsingleton.elim _ _
  exact weight_ref x0 x1 x2 x3 x4 x5 x6 x7 B d

/-- The reference's first result is the array of pooled features. -/
theorem pooled_eq :
    val_main_v30 (F := Ideal) x0 x1 x2 x3 x4 x5 x6 x7 = pooledArr x0 (val_main_v9 (F := Ideal) x1 x7) x2 x3 x4 x5 x6 := by
  funext i
  obtain ⟨B, f, rfl⟩ : ∃ (B : Fin 1024) (f : Fin 256), i = ix2 B f := ⟨i 0, i 1, eq_ix2 i⟩
  exact pooled_ref x0 x1 x2 x3 x4 x5 x6 x7 B f

end Cert.Attention.Reference

end
-- ==== Proof.GatheredRows.lean ====
/-
  Both programs look the embedding rows up the same way before anything else: the table with its row 0 zeroed,
  gathered at the ids (a negative id wrapped by the table's length). The kernel's host operations leave that
  array where the region's second window reads it; it is the reference's gathered array, term for term.
-/
import proofs.«106439_j46042049413570_1_alg».proof.Proof.Gen.KernelIdeal.Frame
import proofs.«106439_j46042049413570_1_alg».proof.Proof.Gen.ReferenceIdeal.Read
import Idealize.ShloMosaic.Lib.StableHlo.Run

noncomputable section

namespace Cert.Attention.Gathered

open Idealize.ShloMosaic Idealize.ShloMosaic.TcCoe Idealize.SL.Sem Idealize.ShloMosaic.StableHlo

/-- The array the kernel's region finds at its second operand is the reference's gathered array of the launched ids
    and table. -/
theorem gathered_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S1024x200x256.Idx → EReal)
      = Cert.ReferenceIdeal.Read.val_main_v9 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg7)) := by
  dsimp only [Cert.KernelIdeal.Gen.V, Cert.KernelIdeal.Gen.hostOps0]
  after_results
  rfl

end Cert.Attention.Gathered

end
-- ==== Proof.lean ====
/-
  The kernel and its reference compute, batch row by batch row, the same additive attention (`Cert.Attention`):
  a rectified two-input hidden layer, a score per item, weights `exp score / (Σ exp score + ε)` over the row's 200
  items, and the weighted sum of the row's features. The kernel tiles the 1024 batch rows in 128 blocks of 8 and
  writes its three contractions as matrix products over the 1600 flattened items of a block; the reference
  contracts the whole arrays. On the extended reals each side is the same sums of the same products, term for
  term, so no law of arithmetic beyond `0 + x = x` is used and the precondition is never opened.

  Modules: AttentionRow (the row functions and the two whole-array functions), ReferenceRows (the reference's
  results are those functions), KernelBlock (a grid point's stored values are those functions of its block),
  BlocksToArrays (the blocks tile the results), GatheredRows (both programs gather the same embedding rows).
-/
import proofs.«106439_j46042049413570_1_alg».proof.Defs
import proofs.«106439_j46042049413570_1_alg».proof.Proof.Gen.Kernel
import proofs.«106439_j46042049413570_1_alg».proof.Proof.Gen.Kernel.Skeleton
import proofs.«106439_j46042049413570_1_alg».proof.Proof.Gen.Kernel.Launch
import proofs.«106439_j46042049413570_1_alg».proof.Proof.Gen.Kernel.Points
import proofs.«106439_j46042049413570_1_alg».proof.Proof.Gen.Kernel.Frame
import proofs.«106439_j46042049413570_1_alg».proof.Proof.Gen.KernelIdeal
import proofs.«106439_j46042049413570_1_alg».proof.Proof.Gen.KernelIdeal.Skeleton
import proofs.«106439_j46042049413570_1_alg».proof.Proof.Gen.KernelIdeal.Launch
import proofs.«106439_j46042049413570_1_alg».proof.Proof.Gen.KernelIdeal.Points
import proofs.«106439_j46042049413570_1_alg».proof.Proof.Gen.KernelIdeal.Frame
import proofs.«106439_j46042049413570_1_alg».proof.Proof.Gen.ReferenceIdeal
import proofs.«106439_j46042049413570_1_alg».proof.Proof.Gen.Pre_finite_inputs
import proofs.«106439_j46042049413570_1_alg».proof.Proof.Gen.KernelIdeal.Value
import proofs.«106439_j46042049413570_1_alg».proof.Proof.Gen.ReferenceIdeal.Run
import proofs.«106439_j46042049413570_1_alg».proof.Proof.Gen.ReferenceIdeal.Read
import proofs.«106439_j46042049413570_1_alg».proof.Proof.BlocksToArrays
import proofs.«106439_j46042049413570_1_alg».proof.Proof.ReferenceRows
import proofs.«106439_j46042049413570_1_alg».proof.Proof.GatheredRows
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the pooled features and the attention weights of the launched arrays. -/
theorem algebraic : Cert.algebraic_KernelIdeal_ReferenceIdeal := by
  intro m ρ m' ρ' _ hagree
  refine ⟨_, _, Cert.Attention.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v30_eq, Cert.Attention.Reference.pooled_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2,
      Cert.Attention.Gathered.gathered_eq m c, Cert.KernelIdeal.Gen.V_main_arg0 m c, Cert.KernelIdeal.Gen.V_main_arg2 m c,
      Cert.KernelIdeal.Gen.V_main_arg3 m c, Cert.KernelIdeal.Gen.V_main_arg4 m c, Cert.KernelIdeal.Gen.V_main_arg5 m c,
      Cert.KernelIdeal.Gen.V_main_arg6 m c]
  · rw [Cert.ReferenceIdeal.Read.val_main_v27_eq, Cert.Attention.Reference.weights_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2,
      Cert.Attention.Gathered.gathered_eq m c, Cert.KernelIdeal.Gen.V_main_arg0 m c, Cert.KernelIdeal.Gen.V_main_arg2 m c,
      Cert.KernelIdeal.Gen.V_main_arg3 m c, Cert.KernelIdeal.Gen.V_main_arg4 m c, Cert.KernelIdeal.Gen.V_main_arg5 m c,
      Cert.KernelIdeal.Gen.V_main_arg6 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
